-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S4096 .f32) (main_arg3 : FVec F S16x4096 .f32) (main_arg4 : FVec F S4096x16 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S2048x512 : Shape := ⟨2, ![2048, 512]⟩
abbrev S1x2048 : Shape := ⟨2, ![1, 2048]⟩
abbrev S2048x2048 : Shape := ⟨2, ![2048, 2048]⟩

abbrev nBuf : Space → Nat
  | .hbm => 12
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S8192x4096, .f32⟩
  | .hbm, ⟨11, _⟩ => ⟨S2x4096x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x4096x4096_S8192x4096 : S2x4096x4096.ShapeCasts S8192x4096
  shapeCasts_S4096_S1x4096 : S4096.ShapeCasts S1x4096
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x4096_S2x4096x4096 : S8192x4096.ShapeCasts S2x4096x4096
  dot_S4096x16_S16x4096_S4096x4096_1_0_0_1_n_n_wf : DotDims.WF S4096x16 S16x4096 S4096x4096 [1] [0] [0] [1] [] []
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S2x4096x16 : Shape := ⟨3, ![2, 4096, 16]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S2x4096x4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S2x4096x16, .f32⟩
  | .hbm, ⟨10, _⟩ => ⟨S2x4096x4096, .f32⟩
  | .hbm, ⟨11, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.LibFiniteReals.lean ====
/-
  Finite values in the extended reals. An extended real is finite when it is the reading of a real number; the finite
  values are closed under sum, difference, product, negation, maximum, minimum and finite sums, and on them the
  product distributes over sums, finite sums included — the laws that fail at the infinities (where a product with zero
  or a sum of opposite infinities takes a conventional value) and that an argument moving a factor across a sum, or
  folding a bias through a matrix product, has to invoke.
-/
import Idealize.ShloMosaic.PureOps.Ideal

namespace FiniteReals

open Finset

/-- `x` is the reading of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

/-- Finite is: neither infinity. -/
theorem isReal_iff {x : EReal} : IsReal x ↔ x ≠ ⊤ ∧ x ≠ ⊥ :=
  ⟨fun ⟨r, h⟩ => h ▸ ⟨EReal.coe_ne_top r, EReal.coe_ne_bot r⟩,
   fun ⟨h1, h2⟩ => ⟨x.toReal, (EReal.coe_toReal h1 h2).symm⟩⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

theorem IsReal.min {x y : EReal} (hx : IsReal x) (hy : IsReal y) : IsReal (min x y) := by
  obtain ⟨a, rfl⟩ := hx; obtain ⟨b, rfl⟩ := hy
  exact ⟨Min.min a b, (EReal.coe_strictMono.monotone.map_min (a := a) (b := b)).symm⟩

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## Distributivity on finite values -/

theorem mul_add_of_isReal {x y z : EReal} (hx : IsReal x) (hy : IsReal y) (hz : IsReal z) : x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, mul_add]

theorem add_mul_of_isReal {x y z : EReal} (hx : IsReal x) (hy : IsReal y) (hz : IsReal z) : (x + y) * z = x * z + y * z := by
  rw [mul_comm, mul_add_of_isReal hz hx hy, mul_comm z x, mul_comm z y]

/-- A finite factor moves across a finite sum of finite values. -/
theorem sum_mul_of_isReal {ι : Type*} (s : Finset ι) (f : ι → EReal) (x : EReal) (hf : ∀ i ∈ s, IsReal (f i)) (hx : IsReal x) :
    (∑ i ∈ s, f i) * x = ∑ i ∈ s, f i * x := by
  classical
  induction s using Finset.induction_on with
  | empty => simp
  | insert a s ha ih =>
    rw [Finset.sum_insert ha, Finset.sum_insert ha,
      add_mul_of_isReal (hf a (Finset.mem_insert_self a s)) (IsReal.sum s f fun i hi => hf i (Finset.mem_insert_of_mem hi)) hx,
      ih fun i hi => hf i (Finset.mem_insert_of_mem hi)]

end FiniteReals
-- ==== Proof.LoraAlgebra.lean ====
/-
  The algebra that joins the two programs. One entry of the result depends on one row `x` of the activations (4096
  numbers), one row `w` of the weight, the matching row `bb` of the up-projection (16 numbers), the whole
  down-projection `a` (16 rows of 4096) and one bias entry. One program folds the low-rank product into the weight
  first and contracts the activations with the folded weight, eight consecutive stretches of 512 positions at a time,
  starting from zero and adding the bias last; the other contracts the activations with the weight and with the
  down-projection separately, adds the bias to the first, and then adds the second contracted with the up-projection.
  On real numbers the two agree: the product distributes over the inner sum and the two sums over (position, rank)
  exchange. On the extended reals that needs every entry finite, so the law is stated for readings of real numbers.
-/
import Idealize.ShloMosaic.PureOps.Ideal
import proofs.«100918_j45260365365949_2_alg».proof.Proof.LibFiniteReals

open scoped BigOperators

noncomputable section

namespace LoraAlgebra

open Finset FiniteReals

/-- Position `l` of stretch `k` of a row of length 4096 cut into eight stretches of 512. -/
def kl (k : Fin 8) (l : Fin 512) : Fin 4096 := ⟨512 * k.val + l.val, by have := k.isLt; have := l.isLt; omega⟩

@[simp] theorem kl_val (k : Fin 8) (l : Fin 512) : (kl k l).val = 512 * k.val + l.val := rfl

/-- Summing stretch by stretch is summing over the whole row. -/
theorem sum_stretches {M : Type*} [AddCommMonoid M] (f : Fin 4096 → M) :
    ∑ k : Fin 8, ∑ l : Fin 512, f (kl k l) = ∑ i : Fin 4096, f i := by
  rw [← Fintype.sum_prod_type' (fun k l => f (kl k l))]
  refine Fintype.sum_equiv (finProdFinEquiv (m := 8) (n := 512)) _ _ (fun p => congrArg f (Fin.ext ?_))
  simp only [kl_val, finProdFinEquiv_apply_val]
  omega

/-- The reading of a finite sum of reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on real numbers. -/
theorem folded_eq_split_real (x w : Fin 4096 → ℝ) (a : Fin 16 → Fin 4096 → ℝ) (bb : Fin 16 → ℝ) (bias : ℝ) :
    (0 + ∑ k : Fin 8, ∑ l : Fin 512, x (kl k l) * (w (kl k l) + ∑ r : Fin 16, bb r * a r (kl k l))) + bias
      = ((∑ i : Fin 4096, x i * w i) + bias) + ∑ r : Fin 16, (∑ i : Fin 4096, x i * a r i) * bb r := by
  rw [sum_stretches (fun i => x i * (w i + ∑ r : Fin 16, bb r * a r i))]
  simp only [mul_add, Finset.sum_add_distrib, Finset.mul_sum, Finset.sum_mul]
  rw [Finset.sum_comm]
  have e : ∀ (r : Fin 16) (i : Fin 4096), x i * (bb r * a r i) = x i * a r i * bb r := fun r i => by ring
  simp only [e]
  ring

/-- The running sum over the first stretches, as a function of how many stretches have been added: stretch `k` of the
    contraction of `x` with `v`, zero beyond the eighth. -/
def stretch (x v : Fin 4096 → EReal) (k : ℕ) : EReal :=
  if h : k < 8 then ∑ l : Fin 512, x (kl ⟨k, h⟩ l) * v (kl ⟨k, h⟩ l) else 0

/-- The law on the extended reals, at finite entries: zero plus the eight stretches of the contraction with the folded
    weight, plus the bias, is the split form. -/
theorem folded_eq_split (x w : Fin 4096 → EReal) (a : Fin 16 → Fin 4096 → EReal) (bb : Fin 16 → EReal) (bias : EReal)
    (hx : ∀ i, IsReal (x i)) (hw : ∀ i, IsReal (w i)) (ha : ∀ r i, IsReal (a r i)) (hb : ∀ r, IsReal (bb r))
    (hbias : IsReal bias) :
    (0 + ∑ k ∈ Finset.range 8, stretch x (fun i => w i + ∑ r : Fin 16, bb r * a r i) k) + bias
      = ((∑ i : Fin 4096, x i * w i) + bias) + ∑ r : Fin 16, (∑ i : Fin 4096, x i * a r i) * bb r := by
  choose x' hx' using hx
  choose w' hw' using hw
  choose a' ha' using ha
  choose b' hb' using hb
  obtain ⟨c, rfl⟩ := hbias
  obtain rfl : x = fun i => (x' i : EReal) := funext hx'
  obtain rfl : w = fun i => (w' i : EReal) := funext hw'
  obtain rfl : a = fun r i => (a' r i : EReal) := funext fun r => funext (ha' r)
  obtain rfl : bb = fun r => (b' r : EReal) := funext hb'
  rw [Finset.sum_range]
  have hs : ∀ k : Fin 8, stretch (fun i => (x' i : EReal)) (fun i => (w' i : EReal) + ∑ r : Fin 16, (b' r : EReal) * (a' r i : EReal)) k.val
      = ((∑ l : Fin 512, x' (kl k l) * (w' (kl k l) + ∑ r : Fin 16, b' r * a' r (kl k l)) : ℝ) : EReal) := by
    intro k
    unfold stretch
    rw [dif_pos k.isLt]
    simp only [Fin.eta, coe_sum, EReal.coe_mul, EReal.coe_add]
  simp only [hs]
  have h := congrArg (fun r : ℝ => (r : EReal)) (folded_eq_split_real x' w' a' b' c)
  simp only [EReal.coe_add, coe_sum, EReal.coe_mul, EReal.coe_zero] at h
  simpa only [coe_sum, EReal.coe_mul, EReal.coe_add] using h

end LoraAlgebra

end
-- ==== Proof.LoraSpec.lean ====
/-
  The two closed forms of the result, entry by entry, as functions of the five argument arrays: activations
  `x` [2, 4096, 4096], weight `W` [4096, 4096], bias [4096], down-projection `A` [16, 4096] and up-projection
  `B` [4096, 16]. Entry (b, s, o) depends on row (b, s) of `x`, row `o` of `W` and of `B`, all of `A`, and
  entry `o` of the bias. The folded form contracts the row of `x` with row `o` of `W + B·A` stretch by stretch from
  zero and adds the bias last; the split form is `(x·Wᵀ + bias) + (x·Aᵀ)·Bᵀ`. At finite arguments they agree.
-/
import Idealize.ShloMosaic.Lib.ValueIdx
import proofs.«100918_j45260365365949_2_alg».proof.Proof.LoraAlgebra

open scoped BigOperators

noncomputable section

namespace LoraSpec

open Idealize.ShloMosaic Idealize.ShloMosaic.ValueIdx LoraAlgebra FiniteReals

abbrev SX : Shape := ⟨3, ![2, 4096, 4096]⟩
abbrev SW : Shape := ⟨2, ![4096, 4096]⟩
abbrev Sb : Shape := ⟨1, ![4096]⟩
abbrev SA : Shape := ⟨2, ![16, 4096]⟩
abbrev SB : Shape := ⟨2, ![4096, 16]⟩

/-- Entry (o, i) of the folded weight `W + B·A`. -/
def folded (W : SW.Idx → EReal) (A : SA.Idx → EReal) (B : SB.Idx → EReal) (o i : Fin 4096) : EReal :=
  W (ix2 o i) + ∑ r : Fin 16, B (ix2 o r) * A (ix2 r i)

/-- The folded form: zero, plus the eight stretches of the contraction with the folded weight in order, plus the bias. -/
def foldedVal (x : SX.Idx → EReal) (W : SW.Idx → EReal) (bias : Sb.Idx → EReal) (A : SA.Idx → EReal) (B : SB.Idx → EReal) :
    SX.Idx → EReal := fun j =>
  (0 + ∑ k ∈ Finset.range 8, stretch (fun i => x (ix3 (j 0) (j 1) i)) (folded W A B (j 2)) k) + bias (ix1 (j 2))

/-- The split form: the base product plus the bias, plus the low-rank product contracted down first. -/
def splitVal (x : SX.Idx → EReal) (W : SW.Idx → EReal) (bias : Sb.Idx → EReal) (A : SA.Idx → EReal) (B : SB.Idx → EReal) :
    SX.Idx → EReal := fun j =>
  ((∑ i : Fin 4096, x (ix3 (j 0) (j 1) i) * W (ix2 (j 2) i)) + bias (ix1 (j 2)))
    + ∑ r : Fin 16, (∑ i : Fin 4096, x (ix3 (j 0) (j 1) i) * A (ix2 r i)) * B (ix2 (j 2) r)

/-- At finite arguments the folded form is the split form. -/
theorem foldedVal_eq_splitVal (x : SX.Idx → EReal) (W : SW.Idx → EReal) (bias : Sb.Idx → EReal) (A : SA.Idx → EReal)
    (B : SB.Idx → EReal) (hx : ∀ j, IsReal (x j)) (hW : ∀ j, IsReal (W j)) (hbias : ∀ j, IsReal (bias j))
    (hA : ∀ j, IsReal (A j)) (hB : ∀ j, IsReal (B j)) :
    foldedVal x W bias A B = splitVal x W bias A B := by
  funext j
  exact folded_eq_split (fun i => x (ix3 (j 0) (j 1) i)) (fun i => W (ix2 (j 2) i)) (fun r i => A (ix2 r i))
    (fun r => B (ix2 (j 2) r)) (bias (ix1 (j 2))) (fun i => hx _) (fun i => hW _) (fun r i => hA _) (fun r => hB _) (hbias _)

end LoraSpec

end
-- ==== Proof.RefRead.lean ====
/-
  The reference's result, read entry by entry: the generated stage lemmas give each host operation at an index; composed,
  entry (b, s, o) is the base product of row (b, s) of the activations with row `o` of the weight, plus the bias
  entry `o`, plus the sum over the rank of (the row contracted with row `r` of the down-projection) times entry
  (o, r) of the up-projection — the split form.
-/
import proofs.«100918_j45260365365949_2_alg».proof.Proof.Gen.ReferenceIdeal.Run
import proofs.«100918_j45260365365949_2_alg».proof.Proof.Gen.ReferenceIdeal.Read
import proofs.«100918_j45260365365949_2_alg».proof.Proof.LoraSpec

open scoped BigOperators

noncomputable section

namespace Cert.ReferenceIdeal.RefValue

open Cert.ReferenceIdeal Cert.ReferenceIdeal.Read Idealize.ShloMosaic Idealize.ShloMosaic.ValueIdx LoraSpec

theorem l0 (b : Fin 2) (s o k : Fin 4096) : lidx_main_v0 (ix3 b s o) k = ix3 b s k :=
  funext fun a => Fin.ext (by match a with | ⟨0, _⟩ => rfl | ⟨1, _⟩ => rfl | ⟨2, _⟩ => rfl)
theorem r0 (b : Fin 2) (s o k : Fin 4096) : ridx_main_v0 (ix3 b s o) k = ix2 o k :=
  funext fun a => Fin.ext (by match a with | ⟨0, _⟩ => rfl | ⟨1, _⟩ => rfl)
theorem i1 (b : Fin 2) (s o : Fin 4096) : idx_main_v1 (idx_main_v2 (ix3 b s o)) = ix1 o :=
  funext fun a => Fin.ext (by match a with | ⟨0, _⟩ => rfl)
theorem l4 (b : Fin 2) (s : Fin 4096) (r : Fin 16) (k : Fin 4096) : lidx_main_v4 (ix3 b s r) k = ix3 b s k :=
  funext fun a => Fin.ext (by match a with | ⟨0, _⟩ => rfl | ⟨1, _⟩ => rfl | ⟨2, _⟩ => rfl)
theorem r4 (b : Fin 2) (s : Fin 4096) (r : Fin 16) (k : Fin 4096) : ridx_main_v4 (ix3 b s r) k = ix2 r k :=
  funext fun a => Fin.ext (by match a with | ⟨0, _⟩ => rfl | ⟨1, _⟩ => rfl)
theorem l5 (b : Fin 2) (s o : Fin 4096) (r : Fin 16) : lidx_main_v5 (ix3 b s o) r = ix3 b s r :=
  funext fun a => Fin.ext (by match a with | ⟨0, _⟩ => rfl | ⟨1, _⟩ => rfl | ⟨2, _⟩ => rfl)
theorem r5 (b : Fin 2) (s o : Fin 4096) (r : Fin 16) : ridx_main_v5 (ix3 b s o) r = ix2 o r :=
  funext fun a => Fin.ext (by match a with | ⟨0, _⟩ => rfl | ⟨1, _⟩ => rfl)

/-- The reference's last stage is the split form of the arguments. -/
theorem result_eq (x0 : SX.Idx → EReal) (x1 : SW.Idx → EReal) (x2 : Sb.Idx → EReal) (x3 : SA.Idx → EReal) (x4 : SB.Idx → EReal) :
    val_main_v6 (F := Ideal) x0 x1 x2 x3 x4 = splitVal x0 x1 x2 x3 x4 := by
  funext i
  obtain ⟨b, s, o, rfl⟩ : ∃ (b : Fin 2) (s o : Fin 4096), i = ix3 b s o := ⟨i 0, i 1, i 2, eq_ix3 i⟩
  rw [val_main_v6_apply, val_main_v3_apply, val_main_v0_apply, val_main_v2_apply, val_main_v1_apply, val_main_v5_apply]
  simp only [val_main_v4_apply, l0, r0, i1, l4, r4, l5, r5, Ideal.addf_def]
  rfl

end Cert.ReferenceIdeal.RefValue

end
-- ==== Proof.KernelPieces.lean ====
/-
  What one grid step leaves in the output block's staging buffer, read back as a value. The body has three shapes over
  the grid: at the first step of a contraction sweep it stores a zero block, reads it back and adds the step's partial
  product; at a middle step it adds the step's partial product to what the step before left; at the last step it does
  the same and then adds the bias row, broadcast down the block's rows.
-/
import proofs.«100918_j45260365365949_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step: the block the step before left, plus this step's partial product. -/
theorem out_B (c : Dev nD) (i : grid0.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond0_0 i) (hc1 : ¬cond0_1 i)
    (x0 : Vec F S2048x512 .f32) (x1 : Vec F S2048x512 .bf16) (x2 : Vec F S1x2048 .f32) (xo : Vec F S2048x2048 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S2048x512) hz,
    View.ld_unit_zero (S := S2048x2048) hz]

/-- The first step of a sweep: the zero block plus this step's partial product. -/
theorem out_A (c : Dev nD) (i : grid0.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : cond0_0 i) (hc1 : ¬cond0_1 i)
    (x0 : Vec F S2048x512 .f32) (x1 : Vec F S2048x512 .bf16) (x2 : Vec F S1x2048 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz]

/-- The last step of a sweep: the accumulated block plus the bias row. -/
theorem out_C (c : Dev nD) (i : grid0.Coords) (a3 : Memref sig .tc .vmem S2048x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S2048x2048 .f32) (h6 : a6.IsWhole) (hc0 : ¬cond0_0 i) (hc1 : cond0_1 i)
    (x0 : Vec F S2048x512 .f32) (x1 : Vec F S2048x512 .bf16) (x2 : Vec F S1x2048 .f32) (xo : Vec F S2048x2048 .f32) :
    out0_C_3 c i a3 h3 a4 h4 a5 h5 a6 h6 hc0 hc1 x0 x1 x2 xo = k0_pay3 (k0_pay2 x0 x1 xo) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x2048) hz, View.readCov_unit_zero (S := S2048x2048) _ hz]
  simp only [View.readAt_eq_ld, h3.read_unread, h4.read_unread, h5.read_unread, h6.read_unread,
    View.ld_unit_zero (S := S2048x512) hz, View.ld_unit_zero (S := S2048x2048) hz, View.ld_unit_zero (S := S1x2048) hz]

end Cert.KernelIdeal.Pieces

end
-- ==== Proof.KernelPayload.lean ====
/-
  The body's arithmetic read at one entry of the output block, on the extended reals. The step's partial product at
  (p, q) is the sum over the 512 positions of the stretch of row `p` of the activation block times row `q` of the
  folded-weight block (both blocks are laid out row by position, so the product contracts the second axis of both);
  the bias row is broadcast down the rows.
-/
import proofs.«100918_j45260365365949_2_alg».proof.Proof.Gen.KernelIdeal.Skeleton
import Idealize.ShloMosaic.Lib.Pipeline.Value
import Idealize.ShloMosaic.Lib.ValueIdx
import Idealize.ShloMosaic.PureOps.Ideal.Laws

open scoped BigOperators

noncomputable section

namespace Cert.KernelIdeal.Payload

open Cert.KernelIdeal Cert.KernelIdeal.Gen Idealize.ShloMosaic Idealize.ShloMosaic.ValueIdx

local notation "DD" => dot_S2048x512_S2048x512_S2048x2048_1_1_0_0_n_n

theorem lhs_0 (j : S2048x2048.Idx) (k : (DD).contr.Idx) : ((DD).lhsIdx j k 0).val = (j 0).val := by
  unfold DotDims.lhsIdx
  rw [dif_neg (show ¬(0 : Fin S2048x512.rank) ∈ (DD).lhsBatch by decide), dif_pos (show (0 : Fin S2048x512.rank) ∈ (DD).lhsNonContracting by decide)]
  rfl
theorem lhs_1 (j : S2048x2048.Idx) (k : (DD).contr.Idx) : ((DD).lhsIdx j k 1).val = (k ⟨0, by decide⟩).val :=
  (DD).lhsIdx_val_of_single rfl j k
theorem rhs_0 (j : S2048x2048.Idx) (k : (DD).contr.Idx) : ((DD).rhsIdx j k 0).val = (j 1).val := by
  unfold DotDims.rhsIdx
  rw [dif_neg (show ¬(0 : Fin S2048x512.rank) ∈ (DD).rhsBatch by decide), dif_pos (show (0 : Fin S2048x512.rank) ∈ (DD).rhsNonContracting by decide)]
  rfl
theorem rhs_1 (j : S2048x2048.Idx) (k : (DD).contr.Idx) : ((DD).rhsIdx j k 1).val = (k ⟨0, by decide⟩).val :=
  (DD).rhsIdx_val_of_single rfl j k

/-- The step's partial product at (p, q). -/
theorem partial_apply (u : FVec Ideal S2048x512 .bf16) (v : FVec Ideal S2048x512 .bf16) (p q : Fin 2048) :
    matmul (F := Ideal) (DD) none u v (constant S2048x2048 .f32 0x00000000#32) (ix2 p q) = ∑ l : Fin 512, u (ix2 p l) * v (ix2 q l) := by
  simp only [matmul]
  rw [Ideal.matmul_constant_zero_apply, ← Equiv.sum_comp (contrEquiv1 (DD) 512 rfl rfl).symm]
  refine Finset.sum_congr rfl fun l _ => ?_
  have hl := contrEquiv1_symm_val (DD) 512 rfl rfl l
  have el : (DD).lhsIdx (ix2 p q) ((contrEquiv1 (DD) 512 rfl rfl).symm l) = ix2 p l := funext fun a => Fin.ext (by
    match a with
    | ⟨0, _⟩ => exact lhs_0 _ _
    | ⟨1, _⟩ => exact (lhs_1 _ _).trans hl)
  have er : (DD).rhsIdx (ix2 p q) ((contrEquiv1 (DD) 512 rfl rfl).symm l) = ix2 q l := funext fun a => Fin.ext (by
    match a with
    | ⟨0, _⟩ => exact rhs_0 _ _
    | ⟨1, _⟩ => exact (rhs_1 _ _).trans hl)
  rw [el, er]

/-- The zero block. -/
theorem pay1_apply (j : S2048x2048.Idx) : k0_pay1 (F := Ideal) j = 0 := Ideal.ofBits_zero_f32

/-- The accumulating store's value at (p, q): what the block held there plus the step's partial product. -/
theorem pay2_apply (x0 : Vec Ideal S2048x512 .f32) (x1 : Vec Ideal S2048x512 .bf16) (xo : Vec Ideal S2048x2048 .f32) (p q : Fin 2048) :
    k0_pay2 (F := Ideal) x0 x1 xo (ix2 p q) = xo (ix2 p q) + ∑ l : Fin 512, x0 (ix2 p l) * x1 (ix2 q l) := by
  unfold k0_pay2
  show (shapeCast S2048x2048 xo shapeCasts_S2048x2048_S2048x2048) (ix2 p q)
    + matmul (F := Ideal) (DD) none (truncf .bf16 (shapeCast S2048x512 x0 shapeCasts_S2048x512_S2048x512) bitsLt_bf16_f32)
        (shapeCast S2048x512 x1 shapeCasts_S2048x512_S2048x512) (constant S2048x2048 .f32 0x00000000#32) (ix2 p q) = _
  rw [partial_apply, shapeCast_self, shapeCast_self, shapeCast_self]
  rfl

/-- The last store's value at (p, q): what the block held there plus entry `q` of the bias row. -/
theorem pay3_apply (v16 : Vec Ideal S2048x2048 .f32) (v18 : Vec Ideal S1x2048 .f32) (p q : Fin 2048) :
    k0_pay3 (F := Ideal) v16 v18 (ix2 p q) = v16 (ix2 p q) + v18 (ix2 0 q) := by
  unfold k0_pay3
  show (shapeCast S2048x2048 v16 shapeCasts_S2048x2048_S2048x2048) (ix2 p q)
    + broadcastTo S2048x2048 (shapeCast S1x2048 v18 shapeCasts_S1x2048_S1x2048) broadcasts_S1x2048_S2048x2048 (ix2 p q) = _
  rw [shapeCast_self, shapeCast_self]
  refine congrArg (v16 (ix2 p q) + ·) ?_
  exact broadcastTo_apply v18 broadcasts_S1x2048_S2048x2048 (ix2 p q) (ix2 0 q) (fun a => match a with
    | ⟨0, _⟩ => by show (0 : Nat) = if (1 : Nat) = 1 then 0 else p.val; rw [if_pos rfl]
    | ⟨1, _⟩ => by show q.val = if (2048 : Nat) = 1 then 0 else q.val; rw [if_neg (by decide)])

end Cert.KernelIdeal.Payload

end
-- ==== Proof.KernelArrays.lean ====
/-
  The arrays the region finds, and its windows' blocks, read at an entry. Before the region the host lays the
  activations out as 8192 rows (row 4096·b + s is row (b, s)), lays the bias out as one row, and folds the low-rank
  product into the weight: entry (o, i) of the folded weight is `W(o, i) + ∑ᵣ B(o, r)·A(r, i)`. At grid point
  `t = 16·I + 8·J + K` the activation window is rows 2048·I … of stretch `K`, the folded-weight window rows 2048·J … of
  stretch `K`, the bias window columns 2048·J … of the one row, and the output window block (I, J).
-/
import proofs.«100918_j45260365365949_2_alg».proof.Proof.Gen.KernelIdeal.Frame
import proofs.«100918_j45260365365949_2_alg».proof.Proof.LoraSpec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

open scoped BigOperators

noncomputable section

open Idealize.ShloMosaic Idealize.ShloMosaic.TcCoe Idealize.SL.Sem

namespace Cert.KernelIdeal.Arrays

open Cert.KernelIdeal Cert.KernelIdeal.Gen Idealize.ShloMosaic.ValueIdx LoraAlgebra

variable (m : (ℓ : Loc nD τ sig) → Buf (Elt Ideal) ℓ)

/-! ## The host operations before the region -/

theorem V_v0 (c : Dev nD) : (V m c main_v0 : S8192x4096.Idx → EReal)
    = shapeCast S8192x4096 (m ((c : Thread nD τ).loc main_arg0)) shapeCasts_S2x4096x4096_S8192x4096 := by
  show StableHlo.after hostOps0 (fun b => m (c, b)) (Proc.devRef .tc main_v0) = _
  after_results
  rfl

theorem V_v1 (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl

theorem V_v4 (c : Dev nD) : (V m c main_v4 : S4096x4096.Idx → EReal)
    = truncf .bf16 (addf (m ((c : Thread nD τ).loc main_arg1))
        (Host.dotGeneral (F := Ideal) (φ₁ := .f32) (φ₂ := .f32) dot_S4096x16_S16x4096_S4096x4096_1_0_0_1_n_n none (m ((c : Thread nD τ).loc main_arg4)) (m ((c : Thread nD τ).loc main_arg3))))
        bitsLt_bf16_f32 := by
  show StableHlo.after hostOps0 (fun b => m (c, b)) (Proc.devRef .tc main_v4) = _
  after_results

/-! ## Those arrays at an entry -/

/-- Row (b, s) of the activations among the 8192 rows. -/
def rs (b : Fin 2) (s : Fin 4096) : Fin 8192 := ⟨4096 * b.val + s.val, by have := b.isLt; have := s.isLt; omega⟩

theorem X2_apply (c : Dev nD) (b : Fin 2) (s i : Fin 4096) :
    (V m c main_v0 : S8192x4096.Idx → EReal) (ix2 (rs b s) i) = m ((c : Thread nD τ).loc main_arg0) (ix3 b s i) := by
  rw [V_v0]
  refine shapeCast_apply _ _ (ix2 (rs b s) i) (ix3 b s i) ?_
  rw [Shape.rowMajor_val_three, Shape.rowMajor_val_two]
  show (b.val * 4096 + s.val) * 4096 + i.val = (4096 * b.val + s.val) * 4096 + i.val
  omega

theorem b2_apply (c : Dev nD) (o : Fin 4096) :
    (V m c main_v1 : S1x4096.Idx → EReal) (ix2 (0 : Fin 1) o) = m ((c : Thread nD τ).loc main_arg2) (ix1 o) := by
  rw [V_v1]
  refine shapeCast_apply _ _ (ix2 (0 : Fin 1) o) (ix1 o) ?_
  rw [Shape.rowMajor_val_one, Shape.rowMajor_val_two]
  show o.val = 0 * 4096 + o.val
  omega

local notation "DH" => dot_S4096x16_S16x4096_S4096x4096_1_0_0_1_n_n

theorem hl0 (j : S4096x4096.Idx) (k : (DH).contr.Idx) : ((DH).lhsIdx j k 0).val = (j 0).val := by
  unfold DotDims.lhsIdx
  rw [dif_neg (show ¬(0 : Fin S4096x16.rank) ∈ (DH).lhsBatch by decide), dif_pos (show (0 : Fin S4096x16.rank) ∈ (DH).lhsNonContracting by decide)]
  rfl
theorem hl1 (j : S4096x4096.Idx) (k : (DH).contr.Idx) : ((DH).lhsIdx j k 1).val = (k ⟨0, by decide⟩).val :=
  (DH).lhsIdx_val_of_single rfl j k
theorem hr0 (j : S4096x4096.Idx) (k : (DH).contr.Idx) : ((DH).rhsIdx j k 0).val = (k ⟨0, by decide⟩).val :=
  (DH).rhsIdx_val_of_single rfl j k
theorem hr1 (j : S4096x4096.Idx) (k : (DH).contr.Idx) : ((DH).rhsIdx j k 1).val = (j 1).val := by
  unfold DotDims.rhsIdx
  rw [dif_neg (show ¬(1 : Fin S16x4096.rank) ∈ (DH).rhsBatch by decide), dif_pos (show (1 : Fin S16x4096.rank) ∈ (DH).rhsNonContracting by decide)]
  rfl

/-- The low-rank product at (o, i): the sum over the rank of `B(o, r)·A(r, i)`. -/
theorem lowrank_apply (B : FVec Ideal S4096x16 .f32) (A : FVec Ideal S16x4096 .f32) (o i : Fin 4096) :
    Host.dotGeneral (F := Ideal) (DH) none B A (ix2 o i) = ∑ r : Fin 16, B (ix2 o r) * A (ix2 r i) := by
  simp only [Host.dotGeneral]
  rw [Ideal.dotGeneral_apply, ← Equiv.sum_comp (contrEquiv1 (DH) 16 rfl rfl).symm]
  refine Finset.sum_congr rfl fun r _ => ?_
  have hr := contrEquiv1_symm_val (DH) 16 rfl rfl r
  have el : (DH).lhsIdx (ix2 o i) ((contrEquiv1 (DH) 16 rfl rfl).symm r) = ix2 o r := funext fun a => Fin.ext (by
    match a with
    | ⟨0, _⟩ => exact hl0 _ _
    | ⟨1, _⟩ => exact (hl1 _ _).trans hr)
  have er : (DH).rhsIdx (ix2 o i) ((contrEquiv1 (DH) 16 rfl rfl).symm r) = ix2 r i := funext fun a => Fin.ext (by
    match a with
    | ⟨0, _⟩ => exact (hr0 _ _).trans hr
    | ⟨1, _⟩ => exact hr1 _ _)
  rw [el, er]

/-- The host's folding of the low-rank product into the weight, at (o, i). -/
theorem folded_apply (W : FVec Ideal S4096x4096 .f32) (B : FVec Ideal S4096x16 .f32) (A : FVec Ideal S16x4096 .f32) (o i : Fin 4096) :
    (truncf .bf16 (addf W (Host.dotGeneral (F := Ideal) (DH) none B A)) bitsLt_bf16_f32 : FVec Ideal S4096x4096 .bf16) (ix2 o i)
      = LoraSpec.folded W A B o i := by
  show W (ix2 o i) + Host.dotGeneral (F := Ideal) (DH) none B A (ix2 o i) = _
  rw [lowrank_apply]
  rfl

/-- The folded weight the region finds, at (o, i). -/
theorem Wb_apply (c : Dev nD) (o i : Fin 4096) :
    (V m c main_v4 : S4096x4096.Idx → EReal) (ix2 o i)
      = LoraSpec.folded (m ((c : Thread nD τ).loc main_arg1)) (m ((c : Thread nD τ).loc main_arg3)) (m ((c : Thread nD τ).loc main_arg4)) o i := by
  rw [V_v4]
  exact folded_apply _ _ _ o i

/-! ## The windows' blocks -/

/-- The array row under row `p` of the activation (and output) block at point `n`. -/
def rowOf (n : ℕ) (p : Fin 2048) : Fin 8192 := ⟨(2048 * (n / 16) + p.val) % 8192, Nat.mod_lt _ (by norm_num)⟩
/-- The array row under row `q` of the folded-weight block at point `n`; the output and bias column likewise. -/
def colOf (n : ℕ) (q : Fin 2048) : Fin 4096 := ⟨2048 * ((n / 8) % 2) + q.val, by have := q.isLt; omega⟩
/-- The stretch of the contraction that point `n` adds. -/
def stretchOf (n : ℕ) : Fin 8 := ⟨n % 8, Nat.mod_lt _ (by norm_num)⟩

theorem idx_0 : ∀ t : Fin cfg0.N, win0_0.index t 0 = t.val / 16 ∧ win0_0.index t 1 = t.val % 8 :=
  (by decide +kernel : ∀ t : Fin grid0.N, win0_0.index t 0 = t.val / 16 ∧ win0_0.index t 1 = t.val % 8)
theorem idx_1 : ∀ t : Fin cfg0.N, win0_1.index t 0 = (t.val / 8) % 2 ∧ win0_1.index t 1 = t.val % 8 :=
  (by decide +kernel : ∀ t : Fin grid0.N, win0_1.index t 0 = (t.val / 8) % 2 ∧ win0_1.index t 1 = t.val % 8)
theorem idx_2 : ∀ t : Fin cfg0.N, win0_2.index t 0 = 0 ∧ win0_2.index t 1 = (t.val / 8) % 2 :=
  (by decide +kernel : ∀ t : Fin grid0.N, win0_2.index t 0 = 0 ∧ win0_2.index t 1 = (t.val / 8) % 2)
theorem idx_3 : ∀ t : Fin cfg0.N, win0_3.index t 0 = t.val / 16 ∧ win0_3.index t 1 = (t.val / 8) % 2 :=
  (by decide +kernel : ∀ t : Fin grid0.N, win0_3.index t 0 = t.val / 16 ∧ win0_3.index t 1 = (t.val / 8) % 2)

theorem iblk0_apply (c : Dev nD) (t : Fin cfg0.N) (p : Fin 2048) (l : Fin 512) :
    (iblk m c 0 t : Vec Ideal S2048x512 .f32) (ix2 p l)
      = (V m c main_v0 : S8192x4096.Idx → EReal) (ix2 (rowOf t.val p) (kl (stretchOf t.val) l)) := by
  have hN : t.val < 64 := lt_of_lt_of_eq t.isLt (show cfg0.N = 64 from N_0)
  unfold iblk
  rw [View.read_apply]
  show (V m c main_v0 : S8192x4096.Idx → EReal) _ = _
  congr 1
  funext a
  apply Fin.ext
  match a with
  | ⟨0, _⟩ => show win0_0.index t 0 * 2048 + 1 * p.val = (2048 * (t.val / 16) + p.val) % 8192; rw [(idx_0 t).1]; omega
  | ⟨1, _⟩ => show win0_0.index t 1 * 512 + 1 * l.val = 512 * (t.val % 8) + l.val; rw [(idx_0 t).2]; omega

theorem iblk1_apply (c : Dev nD) (t : Fin cfg0.N) (q : Fin 2048) (l : Fin 512) :
    (iblk m c 1 t : Vec Ideal S2048x512 .bf16) (ix2 q l)
      = (V m c main_v4 : S4096x4096.Idx → EReal) (ix2 (colOf t.val q) (kl (stretchOf t.val) l)) := by
  have hN : t.val < 64 := lt_of_lt_of_eq t.isLt (show cfg0.N = 64 from N_0)
  unfold iblk
  rw [View.read_apply]
  show (V m c main_v4 : S4096x4096.Idx → EReal) _ = _
  congr 1
  funext a
  apply Fin.ext
  match a with
  | ⟨0, _⟩ => show win0_1.index t 0 * 2048 + 1 * q.val = 2048 * ((t.val / 8) % 2) + q.val; rw [(idx_1 t).1]; omega
  | ⟨1, _⟩ => show win0_1.index t 1 * 512 + 1 * l.val = 512 * (t.val % 8) + l.val; rw [(idx_1 t).2]; omega

theorem iblk2_apply (c : Dev nD) (t : Fin cfg0.N) (q : Fin 2048) :
    (iblk m c 2 t : Vec Ideal S1x2048 .f32) (ix2 (0 : Fin 1) q)
      = (V m c main_v1 : S1x4096.Idx → EReal) (ix2 (0 : Fin 1) (colOf t.val q)) := by
  have hN : t.val < 64 := lt_of_lt_of_eq t.isLt (show cfg0.N = 64 from N_0)
  unfold iblk
  rw [View.read_apply]
  show (V m c main_v1 : S1x4096.Idx → EReal) _ = _
  congr 1
  funext a
  apply Fin.ext
  match a with
  | ⟨0, _⟩ => show win0_2.index t 0 * 1 + 1 * 0 = 0; rw [(idx_2 t).1]
  | ⟨1, _⟩ => show win0_2.index t 1 * 2048 + 1 * q.val = 2048 * ((t.val / 8) % 2) + q.val; rw [(idx_2 t).2]; omega

end Cert.KernelIdeal.Arrays

end
-- ==== Proof.KernelAccum.lean ====
/-
  What the output block's staging buffer holds after each grid point, entry by entry. Within one contraction sweep
  (eight consecutive points, the output block index fixed) the buffer holds, after the point that adds stretch `K`, zero
  plus the first `K + 1` stretches of the contraction of the activation row with the folded-weight row, in order; after
  the last point of the sweep the bias entry is added on top. By induction on the point: each point adds its stretch to
  what the point before left, and the first point of a sweep starts again from zero.
-/
import proofs.«100918_j45260365365949_2_alg».proof.Proof.KernelPieces
import proofs.«100918_j45260365365949_2_alg».proof.Proof.KernelPayload
import proofs.«100918_j45260365365949_2_alg».proof.Proof.KernelArrays

set_option maxRecDepth 16384

open scoped BigOperators

noncomputable section

open Idealize.ShloMosaic Idealize.ShloMosaic.TcCoe Idealize.SL.Sem

namespace Cert.KernelIdeal.Accum

open Cert.KernelIdeal Cert.KernelIdeal.Gen Idealize.ShloMosaic.ValueIdx LoraAlgebra Cert.KernelIdeal.Arrays

variable (m : (ℓ : Loc nD τ sig) → Buf (Elt Ideal) ℓ)

/-- Row `r` of the activations as the region finds them, by position. -/
abbrev xrow (c : Dev nD) (r : Fin 8192) : Fin 4096 → EReal := fun i => (V m c main_v0 : S8192x4096.Idx → EReal) (ix2 r i)
/-- Row `o` of the folded weight as the region finds it, by position. -/
abbrev wrow (c : Dev nD) (o : Fin 4096) : Fin 4096 → EReal := fun i => (V m c main_v4 : S4096x4096.Idx → EReal) (ix2 o i)
/-- Entry `o` of the bias row as the region finds it. -/
abbrev bent (c : Dev nD) (o : Fin 4096) : EReal := (V m c main_v1 : S1x4096.Idx → EReal) (ix2 (0 : Fin 1) o)

/-- The three input blocks at point `t`, at the block shapes the body loads them in. -/
abbrev blk0 (c : Dev nD) (t : Fin cfg0.N) : Vec Ideal S2048x512 .f32 := iblk m c 0 t
abbrev blk1 (c : Dev nD) (t : Fin cfg0.N) : Vec Ideal S2048x512 .bf16 := iblk m c 1 t
abbrev blk2 (c : Dev nD) (t : Fin cfg0.N) : Vec Ideal S1x2048 .f32 := iblk m c 2 t

/-- The partial product a point adds at (p, q) is its stretch of the rows' contraction. -/
theorem step_eq (c : Dev nD) (t : Fin cfg0.N) (p q : Fin 2048) :
    ∑ l : Fin 512, blk0 m c t (ix2 p l) * blk1 m c t (ix2 q l)
      = stretch (xrow m c (rowOf t.val p)) (wrow m c (colOf t.val q)) (t.val % 8) := by
  unfold stretch
  rw [dif_pos (Nat.mod_lt _ (by norm_num))]
  refine Finset.sum_congr rfl fun l _ => ?_
  exact congrArg₂ (fun a b : EReal => a * b) (iblk0_apply m c t p l) (iblk1_apply m c t q l)

/-- The first point of a sweep leaves zero plus its stretch. -/
theorem val_A (c : Dev nD) (t : Fin cfg0.N) (h0 : t.val % 8 = 0) (h1 : ¬t.val % 8 = 7) (p q : Fin 2048) :
    outsAt0 m c t.val t.isLt (ix2 p q) = 0 + stretch (xrow m c (rowOf t.val p)) (wrow m c (colOf t.val q)) (t.val % 8) := by
  rw [outsAt0_A m c t h0 h1, Pieces.out_A]
  refine (Payload.pay2_apply (blk0 m c t) (blk1 m c t) (k0_pay1 (F := Ideal)) p q).trans ?_
  rw [Payload.pay1_apply, step_eq]

/-- A middle point adds its stretch to what the point before left. -/
theorem val_B (c : Dev nD) (t : Fin cfg0.N) (h0 : ¬t.val % 8 = 0) (h1 : ¬t.val % 8 = 7) (p q : Fin 2048) :
    outsAt0 m c t.val t.isLt (ix2 p q)
      = outsAt0 m c (t.val - 1) (Nat.lt_of_le_of_lt (Nat.sub_le _ _) t.isLt) (ix2 p q)
        + stretch (xrow m c (rowOf t.val p)) (wrow m c (colOf t.val q)) (t.val % 8) := by
  rw [outsAt0_B m c t h0 h1, Pieces.out_B]
  refine (Payload.pay2_apply (blk0 m c t) (blk1 m c t) _ p q).trans ?_
  rw [step_eq]

/-- The last point of a sweep adds its stretch and then the bias entry. -/
theorem val_C (c : Dev nD) (t : Fin cfg0.N) (h0 : ¬t.val % 8 = 0) (h1 : t.val % 8 = 7) (p q : Fin 2048) :
    outsAt0 m c t.val t.isLt (ix2 p q)
      = (outsAt0 m c (t.val - 1) (Nat.lt_of_le_of_lt (Nat.sub_le _ _) t.isLt) (ix2 p q)
        + stretch (xrow m c (rowOf t.val p)) (wrow m c (colOf t.val q)) (t.val % 8)) + bent m c (colOf t.val q) := by
  rw [outsAt0_C m c t h0 h1, Pieces.out_C]
  refine (Payload.pay3_apply (k0_pay2 (blk0 m c t) (blk1 m c t) _) (blk2 m c t) p q).trans ?_
  rw [Payload.pay2_apply (blk0 m c t) (blk1 m c t) _ p q, step_eq]
  exact congrArg (fun z : EReal => _ + z) (iblk2_apply m c t q)

/-- Zero plus the first `cnt` stretches of the contraction under entry (p, q) of the block of point `n`. -/
def acc (c : Dev nD) (n : ℕ) (p q : Fin 2048) (cnt : ℕ) : EReal :=
  0 + ∑ k ∈ Finset.range cnt, stretch (xrow m c (rowOf n p)) (wrow m c (colOf n q)) k

/-- What the buffer holds at (p, q) after point `n`. -/
def held (c : Dev nD) (n : ℕ) (p q : Fin 2048) : EReal :=
  if n % 8 = 7 then acc m c n p q 8 + bent m c (colOf n q) else acc m c n p q (n % 8 + 1)

theorem outsAt_apply (c : Dev nD) : ∀ (n : ℕ) (h : n < cfg0.N) (p q : Fin 2048), outsAt0 m c n h (ix2 p q) = held m c n p q
  | 0, h, p, q => by
    refine (val_A m c ⟨0, h⟩ rfl (by show ¬(0 : ℕ) % 8 = 7; omega) p q).trans ?_
    unfold held acc
    rw [if_neg (by omega)]
    show 0 + stretch _ _ 0 = 0 + ∑ k ∈ Finset.range 1, stretch _ _ k
    rw [Finset.sum_range_one]
  | n + 1, h, p, q => by
    have hN : n + 1 < 64 := lt_of_lt_of_eq h (show cfg0.N = 64 from N_0)
    by_cases h0 : (n + 1) % 8 = 0
    · have h1 : ¬(n + 1) % 8 = 7 := by omega
      refine (val_A m c ⟨n + 1, h⟩ h0 h1 p q).trans ?_
      unfold held acc
      rw [if_neg h1]
      show 0 + stretch _ _ ((n + 1) % 8) = 0 + ∑ k ∈ Finset.range ((n + 1) % 8 + 1), stretch _ _ k
      rw [h0, Finset.sum_range_one]
    · have ih := outsAt_apply c n (Nat.lt_of_succ_lt h) p q
      have hp : ¬n % 8 = 7 := by omega
      have hk : (n + 1) % 8 = n % 8 + 1 := by omega
      have hr : rowOf (n + 1) p = rowOf n p := Fin.ext (by show (2048 * ((n + 1) / 16) + p.val) % 8192 = (2048 * (n / 16) + p.val) % 8192; omega)
      have hc : colOf (n + 1) q = colOf n q := Fin.ext (by show 2048 * (((n + 1) / 8) % 2) + q.val = 2048 * ((n / 8) % 2) + q.val; omega)
      unfold held at ih
      rw [if_neg hp] at ih
      unfold acc at ih
      by_cases h1 : (n + 1) % 8 = 7
      · refine (val_C m c ⟨n + 1, h⟩ h0 h1 p q).trans ?_
        show (outsAt0 m c n _ (ix2 p q) + stretch (xrow m c (rowOf (n + 1) p)) (wrow m c (colOf (n + 1) q)) ((n + 1) % 8))
          + bent m c (colOf (n + 1) q) = held m c (n + 1) p q
        unfold held acc
        rw [if_pos h1, ih, hr, hc, hk, add_assoc 0, ← Finset.sum_range_succ, show n % 8 + 1 + 1 = 8 by omega]
      · refine (val_B m c ⟨n + 1, h⟩ h0 h1 p q).trans ?_
        show outsAt0 m c n _ (ix2 p q) + stretch (xrow m c (rowOf (n + 1) p)) (wrow m c (colOf (n + 1) q)) ((n + 1) % 8)
          = held m c (n + 1) p q
        unfold held acc
        rw [if_neg h1, ih, hr, hc, hk, add_assoc 0, ← Finset.sum_range_succ]

end Cert.KernelIdeal.Accum

end
-- ==== Proof.KernelFinal.lean ====
/-
  From blocks to the whole result. Every output block (I, J) is written back once, after the last point of its sweep,
  holding at (p, q) zero plus the eight stretches of the contraction of activation row 2048·I + p with folded-weight row
  2048·J + q, plus bias entry 2048·J + q; the 4 × 2 blocks tile the 8192 × 4096 array, so the array ends holding that
  function of (row, column) everywhere. After the region the host lays the 8192 rows back out as (b, s), and with the
  arrays the region found read back to the arguments, entry (b, s, o) of the result is the folded form.
-/
import proofs.«100918_j45260365365949_2_alg».proof.Proof.KernelAccum

set_option maxRecDepth 16384

open scoped BigOperators

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx LoraAlgebra Cert.KernelIdeal.Arrays Cert.KernelIdeal.Accum

variable (m : (ℓ : Loc nD τ sig) → Buf (Elt Ideal) ℓ) (ρ : Dev nD → PrngReg)

/-- What the region's output array ends holding, as one function of (row, column). -/
def out2 (c : Dev nD) : S8192x4096.Idx → EReal := fun j =>
  (0 + ∑ k ∈ Finset.range 8, stretch (xrow m c (j 0)) (wrow m c (j 1)) k) + bent m c (j 1)

/-- What a sweep's last point writes back is its block of that function. -/
theorem flushed_eq (c : Dev nD) (t : Fin cfg0.N) (hf : (cfg0.win 3).flush t = true) :
    (dats m 0 c).flushed 3 t = ((cfg0.win 3).blk t).view.read (Elt Ideal) (out2 m c) := by
  have h7 : t.val % 8 = 7 := (flush0_3 t).mp hf
  have hN : t.val < 64 := lt_of_lt_of_eq t.isLt (show cfg0.N = 64 from N_0)
  show (cfg0.win 3).cut (grid0.coords t) ((dats m 0 c).after 3 t) = _
  rw [after0_3]
  funext j
  have hj0 : (j 0).val < 2048 := (j 0).isLt
  have hj1 : (j 1).val < 2048 := (j 1).isLt
  have e : (cfg0.win 3).xinj (grid0.coords t) j = ix2 (⟨(j 0).val, hj0⟩ : Fin 2048) (⟨(j 1).val, hj1⟩ : Fin 2048) :=
    funext fun a => Fin.ext (by match a with | ⟨0, _⟩ => rfl | ⟨1, _⟩ => rfl)
  show outsAt0 m c t.val t.isLt ((cfg0.win 3).xinj (grid0.coords t) j) = _
  rw [e, outsAt_apply, View.read_apply]
  unfold held acc
  rw [if_pos h7]
  have e0 : (((cfg0.win 3).blk t).view.emb j) 0 = rowOf t.val ⟨(j 0).val, hj0⟩ := Fin.ext (by
    show win0_3.index t 0 * 2048 + 1 * (j 0).val = (2048 * (t.val / 16) + (j 0).val) % 8192
    rw [(idx_3 t).1]; omega)
  have e1 : (((cfg0.win 3).blk t).view.emb j) 1 = colOf t.val ⟨(j 1).val, hj1⟩ := Fin.ext (by
    show win0_3.index t 1 * 2048 + 1 * (j 1).val = 2048 * ((t.val / 8) % 2) + (j 1).val
    rw [(idx_3 t).2]; omega)
  show _ = (0 + ∑ k ∈ Finset.range 8, stretch (xrow m c ((((cfg0.win 3).blk t).view.emb j) 0)) (wrow m c ((((cfg0.win 3).blk t).view.emb j) 1)) k)
    + bent m c ((((cfg0.win 3).blk t).view.emb j) 1)
  rw [e0, e1]

/-- An entry of the array is under point `t`'s block iff each coordinate is in the block's range. -/
theorem mem_blk (t : Fin cfg0.N) (i : S8192x4096.Idx) :
    i ∈ ((cfg0.win 3).blk t).view.set ↔ ∀ a : Fin 2, win0_3.index t a * S2048x2048.size a ≤ (i a).val ∧ (i a).val < win0_3.index t a * S2048x2048.size a + S2048x2048.size a := by
  show i ∈ ((View.whole main_v5).slice (win0_3.rect t)).set ↔ _
  rw [View.set_slice_whole, Rect.mem_set_unit]
  exact Iff.rfl

/-- Every entry is under the block some sweep's last point writes back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 16 * ((i 0).val / 2048) + 8 * ((i 1).val / 2048) + 7 :=
    ⟨⟨16 * ((i 0).val / 2048) + 8 * ((i 1).val / 2048) + 7, by rw [show cfg0.N = 64 from N_0]; omega⟩, rfl⟩
  refine ⟨t, (flush0_3 t).mpr (by omega), ?_⟩
  rw [mem_blk]
  obtain ⟨e0, e1⟩ := idx_3 t
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 2048 ≤ (i 1).val ∧ (i 1).val < win0_3.index t 1 * 2048 + 2048
    rw [e1]; omega

/-- So the region's output array ends holding that function. -/
theorem final (c : Dev nD) : (dats m 0 c).arrAt 3 cfg0.N = out2 m c :=
  (dats m 0 c).arrAt_eq_of_cover 3 (out2 m c) (flushed_eq m c) cover

end Cert.KernelIdeal.Final

end
-- ==== Proof.KernelRun.lean ====
/-
  The kernel's run, read: after the region the host lays the 8192 rows of the region's output back out as (b, s), so
  entry (b, s, o) of the result is entry (4096·b + s, o) of the region's output; with the arrays the region found read
  back to the arguments (activation row (b, s), folded-weight row `o`, bias entry `o`) that is the folded form of the
  five arguments.
-/
import proofs.«100918_j45260365365949_2_alg».proof.Proof.KernelFinal

set_option maxRecDepth 16384

open scoped BigOperators

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx LoraAlgebra Cert.KernelIdeal.Arrays Cert.KernelIdeal.Accum
  Cert.KernelIdeal.Final

variable (m : (ℓ : Loc nD τ sig) → Buf (Elt Ideal) ℓ) (ρ : Dev nD → PrngReg)

/-- The host operation after the region lays the region's output out as [2, 4096, 4096]. -/
theorem tail_eq (c : Dev nD) :
    Pipeline.afterTail₀ cfgs (dats m) 0 (V0 m) [hostOps1] c main_v6
      = shapeCast S2x4096x4096 (out2 m c) shapeCasts_S8192x4096_S2x4096x4096 := by
  unfold Pipeline.afterTail₀
  show StableHlo.after hostOps1 _ (Proc.devRef .tc main_v6) = _
  after_results
  exact congrArg (fun z => shapeCast S2x4096x4096 z shapeCasts_S8192x4096_S2x4096x4096)
    ((Pipeline.withArrays_arr spec0 launch0.win.arr_inj c _ _ 3).trans (final m c))

/-- Entry (b, s, o) of the result is the folded form of the arguments there. -/
theorem result_apply (c : Dev nD) (b : Fin 2) (s o : Fin 4096) :
    shapeCast S2x4096x4096 (out2 m c) shapeCasts_S8192x4096_S2x4096x4096 (ix3 b s o)
      = LoraSpec.foldedVal (m ((c : Thread nD τ).loc main_arg0)) (m ((c : Thread nD τ).loc main_arg1)) (m ((c : Thread nD τ).loc main_arg2))
          (m ((c : Thread nD τ).loc main_arg3)) (m ((c : Thread nD τ).loc main_arg4)) (ix3 b s o) := by
  refine (shapeCast_apply _ _ (ix3 b s o) (ix2 (rs b s) o) ?_).trans ?_
  · rw [Shape.rowMajor_val_three, Shape.rowMajor_val_two]
    show (4096 * b.val + s.val) * 4096 + o.val = (b.val * 4096 + s.val) * 4096 + o.val
    omega
  · have ex : xrow m c (rs b s) = fun i => m ((c : Thread nD τ).loc main_arg0) (ix3 b s i) := funext fun i => X2_apply m c b s i
    have ew : wrow m c o = LoraSpec.folded (m ((c : Thread nD τ).loc main_arg1)) (m ((c : Thread nD τ).loc main_arg3)) (m ((c : Thread nD τ).loc main_arg4)) o :=
      funext fun i => Wb_apply m c o i
    have eb : bent m c o = m ((c : Thread nD τ).loc main_arg2) (ix1 o) := b2_apply m c o
    show (0 + ∑ k ∈ Finset.range 8, stretch (xrow m c (rs b s)) (wrow m c o) k) + bent m c o = _
    rw [ex, ew, eb]
    rfl

/-- The result is the folded form of the arguments. -/
theorem result_eq (c : Dev nD) :
    shapeCast S2x4096x4096 (out2 m c) shapeCasts_S8192x4096_S2x4096x4096
      = LoraSpec.foldedVal (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  obtain ⟨b, s, o, rfl⟩ : ∃ (b : Fin 2) (s o : Fin 4096), j = ix3 b s o := ⟨j 0, j 1, j 2, eq_ix3 j⟩
  exact result_apply m c b s o

/-- Every weakly fair execution of the idealized kernel ends with the result at the folded form of the arguments and
    the arguments unchanged. -/
theorem run : θ_run defs (onTc (τ := τ) (main (F := Ideal))) ⟨m, fun _ => 0, ρ⟩ fun r => ∀ c : Dev nD,
      r.2.mem ((c.tc : Thread nD τ).loc main_v6)
        = LoraSpec.foldedVal (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.FiniteArgs.lean ====
/-
  The precondition read back: it is the conjunction, over the five arguments, of "every entry's absolute value is below
  plus infinity". On the extended reals an absolute value `max x (−x)` is below plus infinity exactly when `x` is
  neither infinity, that is, when `x` is the reading of a real number.
-/
import proofs.«100918_j45260365365949_2_alg».proof.Pre_finite_inputs
import proofs.«100918_j45260365365949_2_alg».proof.Proof.LibFiniteReals
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic FiniteReals

variable [Facts]
open Facts

instance : Subsingleton S_.Idx := ⟨fun a b => funext fun d => d.elim0⟩

theorem and1 : ∀ (a b : BitVec 1), IntOp.andi a b = 1#1 ↔ a = 1#1 ∧ b = 1#1 := by decide

theorem inf_word : Ideal.ofBits .f32 0x7F800000#32 = ⊤ := by simp [Ideal.ofBits, Ideal.ieee]

/-- An absolute value below plus infinity is that of a real number. -/
theorem isReal_of_abs_lt (x : EReal) (h : Ideal.cmp .olt (max x (-x)) (Ideal.ofBits .f32 0x7F800000#32) = 1#1) : IsReal x := by
  rw [inf_word] at h
  induction x using EReal.rec with
  | bot => exact absurd h (by simp [Ideal.cmp])
  | top => exact absurd h (by simp [Ideal.cmp])
  | coe r => exact ⟨r, rfl⟩

/-- One conjunct of the precondition gives every entry of its argument finite. -/
theorem isReal_of_all {s : Shape} (X : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf X) (broadcastInDim s ![] hb (constant (F := Ideal) S_ .f32 0x7F800000#32)))
      (constantI S_ 1 1#1) hr hu ValueIdx.ix0 = 1#1) (i : s.Idx) : IsReal (X i) :=
  isReal_of_abs_lt (X i) (Host.reduce_andi_all _ _ hr hu ValueIdx.ix0 e i)

/-- The precondition gives every entry of every argument finite. -/
theorem finite_of_pre (x0 : FVec Ideal S2x4096x4096 .f32) (x1 : FVec Ideal S4096x4096 .f32) (x2 : FVec Ideal S4096 .f32)
    (x3 : FVec Ideal S16x4096 .f32) (x4 : FVec Ideal S4096x16 .f32) (h : fn (F := Ideal) x0 x1 x2 x3 x4 = fun _ => 1#1) :
    (∀ j, IsReal (x0 j)) ∧ (∀ j, IsReal (x1 j)) ∧ (∀ j, IsReal (x2 j)) ∧ (∀ j, IsReal (x3 j)) ∧ (∀ j, IsReal (x4 j)) := by
  have e := congrFun h ValueIdx.ix0
  unfold fn fn_part1 at e
  simp only [andi, and1] at e
  obtain ⟨⟨⟨⟨h0, h1⟩, h2⟩, h3⟩, h4⟩ := e
  exact ⟨isReal_of_all x0 _ _ _ h0, isReal_of_all x1 _ _ _ h1, isReal_of_all x2 _ _ _ h2, isReal_of_all x3 _ _ _ h3,
    isReal_of_all x4 _ _ _ h4⟩

end Cert.Pre_finite_inputs.Finite

end
-- ==== Proof.lean ====
/-
  A linear layer with a rank-16 low-rank correction, `out = x·Wᵀ + bias + (x·Aᵀ)·Bᵀ`, over activations [2, 4096, 4096].
  The kernel folds the correction into the weight once on the host, `W + B·A`, and then runs one blocked matrix product
  of the 8192 activation rows with the folded weight: 4 × 2 output blocks of 2048 × 2048, each accumulated in place over
  eight stretches of 512 contraction positions, zeroed at the first stretch, the bias row added after the last. The
  reference contracts the activations with the weight and with the down-projection separately, adds the bias to the
  first product, and adds the second product contracted with the up-projection.

  On the extended reals a change of float format is the identity, so the kernel's result at (b, s, o) is zero plus the
  eight stretch sums of row (b, s) against row `o` of the folded weight, in order, plus the bias entry (the folded form),
  and the reference's is the split form. The two are equal when every argument entry is finite — the product distributes
  over the inner sum and the sums over (position, rank) exchange, which fails at the infinities — and the precondition
  says exactly that every entry is finite.

  The frames are the generated ones (the reference's is its generated run with the result dropped); the ideal pass
  rewrote nothing, so the second-to-last conjunct is `True`.
-/
import proofs.«100918_j45260365365949_2_alg».proof.Defs
import proofs.«100918_j45260365365949_2_alg».proof.Proof.Gen.Kernel
import proofs.«100918_j45260365365949_2_alg».proof.Proof.Gen.Kernel.Skeleton
import proofs.«100918_j45260365365949_2_alg».proof.Proof.Gen.Kernel.Launch
import proofs.«100918_j45260365365949_2_alg».proof.Proof.Gen.Kernel.Points
import proofs.«100918_j45260365365949_2_alg».proof.Proof.Gen.Kernel.Frame
import proofs.«100918_j45260365365949_2_alg».proof.Proof.Gen.KernelIdeal
import proofs.«100918_j45260365365949_2_alg».proof.Proof.Gen.KernelIdeal.Skeleton
import proofs.«100918_j45260365365949_2_alg».proof.Proof.Gen.KernelIdeal.Launch
import proofs.«100918_j45260365365949_2_alg».proof.Proof.Gen.KernelIdeal.Points
import proofs.«100918_j45260365365949_2_alg».proof.Proof.Gen.KernelIdeal.Frame
import proofs.«100918_j45260365365949_2_alg».proof.Proof.Gen.ReferenceIdeal
import proofs.«100918_j45260365365949_2_alg».proof.Proof.Gen.ReferenceIdeal.Run
import proofs.«100918_j45260365365949_2_alg».proof.Proof.Gen.ReferenceIdeal.Read
import proofs.«100918_j45260365365949_2_alg».proof.Proof.Gen.Pre_finite_inputs
import proofs.«100918_j45260365365949_2_alg».proof.Proof.RefRead
import proofs.«100918_j45260365365949_2_alg».proof.Proof.KernelRun
import proofs.«100918_j45260365365949_2_alg».proof.Proof.FiniteArgs
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- Both programs end at the folded form of the kernel's arguments: the kernel by its run read back, the reference
    because its split form of arguments that agree is the folded form at finite entries. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2.1,
    (hagree c).2.2.1, (hagree c).2.2.2.1, (hagree c).2.2.2.2]
  obtain ⟨f0, f1, f2, f3, f4⟩ := Cert.Pre_finite_inputs.Finite.finite_of_pre _ _ _ _ _ (hpre c)
  exact (LoraSpec.foldedVal_eq_splitVal _ _ _ _ _ f0 f1 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
